-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x96x96 : Shape := ⟨4, ![16, 256, 96, 96]⟩
abbrev S1 : Shape := ⟨1, ![1]⟩
abbrev S_ : Shape := ⟨0, ![]⟩

class Facts : Prop where
  bcast_S_S16x256x96x96 : S_.BroadcastsInDim S16x256x96x96 (![] : Fin 0 → Fin S16x256x96x96.rank)
  reducesTo_S16x256x96x96_S_d0_1_2_3 : S16x256x96x96.ReducesTo [0, 1, 2, 3] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S16x256x96x96 .f32) (main_arg1 : FVec F S1 .f32) : IVec S_ 1 :=
  let main_v0 : FVec F S16x256x96x96 .f32 := Host.absf main_arg0
  let main_cst : FVec F S_ .f32 := constant S_ .f32 0x7F800000#32
  let main_v1 : FVec F S16x256x96x96 .f32 := broadcastInDim S16x256x96x96 ![] bcast_S_S16x256x96x96 main_cst
  let main_v2 : IVec S16x256x96x96 1 := cmpf .olt main_v0 main_v1
  let main_c : IVec S_ 1 := constantI S_ 1 1#1
  let main_v3 : IVec S_ 1 := (fun x v => Host.reduce IntOp.andi x v reducesTo_S16x256x96x96_S_d0_1_2_3 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S16x256x96x96 : Shape := ⟨4, ![16, 256, 96, 96]⟩
abbrev S1 : Shape := ⟨1, ![1]⟩
abbrev S16x256x9216 : Shape := ⟨3, ![16, 256, 9216]⟩
abbrev S1x256x9216 : Shape := ⟨3, ![1, 256, 9216]⟩
abbrev S256x256 : Shape := ⟨2, ![256, 256]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S16x256x96x96, .f32⟩
  | .hbm, ⟨1, _⟩ => ⟨S1, .f32⟩
  | .hbm, ⟨2, _⟩ => ⟨S16x256x9216, .f32⟩
  | .hbm, ⟨3, _⟩ => ⟨S16x256x9216, .f32⟩
  | .hbm, ⟨4, _⟩ => ⟨S16x256x96x96, .f32⟩
  | .local _ .vmem, ⟨0, _⟩ => ⟨S1x256x9216, .f32⟩
  | .local _ .vmem, ⟨1, _⟩ => ⟨S1x256x9216, .f32⟩
  | .local _ .vmem, ⟨2, _⟩ => ⟨S1, .f32⟩
  | .local _ .vmem, ⟨3, _⟩ => ⟨S1x256x9216, .f32⟩
  | .local _ .vmem, ⟨4, _⟩ => ⟨S1x256x9216, .f32⟩
  | _, _ => ⟨S16x256x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x9216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x256x96x96_S16x256x9216 : S16x256x96x96.ShapeCasts S16x256x9216
  inb_S1x256x9216_S1x256x1024_0_0_0 : ∀ a, (![0, 0, 0] : Fin 3 → Nat) a + S1x256x1024.size a ≤ S1x256x9216.size a
  h_S1x256x1024 : 0 < S1x256x1024.numel
  shapeCasts_S1x256x1024_S256x1024 : S1x256x1024.ShapeCasts S256x1024
  bitsLt_bf16_f32 : FTy.bits .bf16 < FTy.bits .f32
  inb_S1x256x9216_S1x256x1024_0_0_1024 : ∀ a, (![0, 0, 1024] : Fin 3 → Nat) a + S1x256x1024.size a ≤ S1x256x9216.size a
  inb_S1x256x9216_S1x256x1024_0_0_2048 : ∀ a, (![0, 0, 2048] : Fin 3 → Nat) a + S1x256x1024.size a ≤ S1x256x9216.size a
  inb_S1x256x9216_S1x256x1024_0_0_3072 : ∀ a, (![0, 0, 3072] : Fin 3 → Nat) a + S1x256x1024.size a ≤ S1x256x9216.size a
  inb_S1x256x9216_S1x256x1024_0_0_4096 : ∀ a, (![0, 0, 4096] : Fin 3 → Nat) a + S1x256x1024.size a ≤ S1x256x9216.size a
  inb_S1x256x9216_S1x256x1024_0_0_5120 : ∀ a, (![0, 0, 5120] : Fin 3 → Nat) a + S1x256x1024.size a ≤ S1x256x9216.size a
  inb_S1x256x9216_S1x256x1024_0_0_6144 : ∀ a, (![0, 0, 6144] : Fin 3 → Nat) a + S1x256x1024.size a ≤ S1x256x9216.size a
  inb_S1x256x9216_S1x256x1024_0_0_7168 : ∀ a, (![0, 0, 7168] : Fin 3 → Nat) a + S1x256x1024.size a ≤ S1x256x9216.size a
  inb_S1x256x9216_S1x256x1024_0_0_8192 : ∀ a, (![0, 0, 8192] : Fin 3 → Nat) a + S1x256x1024.size a ≤ S1x256x9216.size a
  reduces_S256x256_S256 : S256x256.Reduces [1] S256
  shapeCasts_S256_S256x1 : S256.ShapeCasts S256x1
  broadcasts_S256x1_S256x256 : S256x1.Broadcasts S256x256
  inb_S1_S1_0 : ∀ a, (![0] : Fin 1 → Nat) a + S1.size a ≤ S1.size a
  h_S1 : 0 < S1.numel
  shapeCasts_S1_S1x1 : S1.ShapeCasts S1x1
  broadcasts_S1x1_S256x1024 : S1x1.Broadcasts S256x1024
  shapeCasts_S256x1024_S1x256x1024 : S256x1024.ShapeCasts S1x256x1024
  shapeCasts_S16x256x9216_S16x256x96x96 : S16x256x9216.ShapeCasts S16x256x96x96
  dot_S256x1024_S256x1024_S256x256_1_1_0_0_n_n_wf : DotDims.WF S256x1024 S256x1024 S256x256 [1] [1] [0] [0] [] []
  dot_S256x256_S256x1024_S256x1024_1_0_0_1_n_n_wf : DotDims.WF S256x256 S256x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x9216.size a ≤ S16x256x9216.size a
  hwx0_0 : ∀ i : grid0.Coords, EltTy.bits .f32 = 32 ∨ (Rect.block (s := S16x256x9216) S1x256x9216.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1.size a ≤ S1.size a
  hwx0_1 : ∀ i : grid0.Coords, EltTy.bits .f32 = 32 ∨ (Rect.block (s := S1) S1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x9216.size a ≤ S16x256x9216.size a
  hwx0_2 : ∀ i : grid0.Coords, EltTy.bits .f32 = 32 ∨ (Rect.block (s := S16x256x9216) S1x256x9216.size (cc0_transform_2 i) (hinb0_2 i)).WholeWords (EltTy.packing .f32)

variable [Facts₀]

def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_v0) S1x256x9216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x9216.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x96x96 : Shape := ⟨4, ![16, 256, 96, 96]⟩
abbrev S1 : Shape := ⟨1, ![1]⟩
abbrev S16x256x9216 : Shape := ⟨3, ![16, 256, 9216]⟩
abbrev S16x256x256 : Shape := ⟨3, ![16, 256, 256]⟩
abbrev S_ : Shape := ⟨0, ![]⟩
abbrev S16x256 : Shape := ⟨2, ![16, 256]⟩
abbrev S16x256x1 : Shape := ⟨3, ![16, 256, 1]⟩
abbrev S1x1x1x1 : Shape := ⟨4, ![1, 1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S16x256x96x96, .f32⟩
  | .hbm, ⟨1, _⟩ => ⟨S1, .f32⟩
  | .hbm, ⟨2, _⟩ => ⟨S16x256x9216, .f32⟩
  | .hbm, ⟨3, _⟩ => ⟨S16x256x256, .f32⟩
  | .hbm, ⟨4, _⟩ => ⟨S_, .f32⟩
  | .hbm, ⟨5, _⟩ => ⟨S16x256, .f32⟩
  | .hbm, ⟨6, _⟩ => ⟨S16x256x1, .f32⟩
  | .hbm, ⟨7, _⟩ => ⟨S16x256x256, .f32⟩
  | .hbm, ⟨8, _⟩ => ⟨S16x256x256, .f32⟩
  | .hbm, ⟨9, _⟩ => ⟨S_, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256x1, .f32⟩
  | .hbm, ⟨15, _⟩ => ⟨S16x256x256, .f32⟩
  | .hbm, ⟨16, _⟩ => ⟨S16x256x256, .f32⟩
  | .hbm, ⟨17, _⟩ => ⟨S16x256x256, .f32⟩
  | .hbm, ⟨18, _⟩ => ⟨S_, .f32⟩
  | .hbm, ⟨19, _⟩ => ⟨S16x256, .f32⟩
  | .hbm, ⟨20, _⟩ => ⟨S16x256x1, .f32⟩
  | .hbm, ⟨21, _⟩ => ⟨S16x256x256, .f32⟩
  | .hbm, ⟨22, _⟩ => ⟨S16x256x256, .f32⟩
  | .hbm, ⟨23, _⟩ => ⟨S16x256x9216, .f32⟩
  | .hbm, ⟨24, _⟩ => ⟨S16x256x96x96, .f32⟩
  | .hbm, ⟨25, _⟩ => ⟨S1x1x1x1, .f32⟩
  | .hbm, ⟨26, _⟩ => ⟨S16x256x96x96, .f32⟩
  | .hbm, ⟨27, _⟩ => ⟨S16x256x96x96, .f32⟩
  | .hbm, ⟨28, _⟩ => ⟨S16x256x96x96, .f32⟩
  | _, _ => ⟨S16x256x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]

class Facts₀ : Prop where
  shapeCasts_S16x256x96x96_S16x256x9216 : S16x256x96x96.ShapeCasts S16x256x9216
  reducesTo_S16x256x256_S16x256_d2 : S16x256x256.ReducesTo [2] S16x256
  h_S_ : 0 < S_.numel
  bcast_S16x256_S16x256x1_0_1 : S16x256.BroadcastsInDim S16x256x1 (![0, 1] : Fin 2 → Fin S16x256x1.rank)
  bcast_S16x256x1_S16x256x256_0_1_2 : S16x256x1.BroadcastsInDim S16x256x256 (![0, 1, 2] : Fin 3 → Fin S16x256x256.rank)
  bcast_S_S16x256 : S_.BroadcastsInDim S16x256 (![] : Fin 0 → Fin S16x256.rank)
  shapeCasts_S16x256x9216_S16x256x96x96 : S16x256x9216.ShapeCasts S16x256x96x96
  bcast_S1_S1x1x1x1_3 : S1.BroadcastsInDim S1x1x1x1 (![3] : Fin 1 → Fin S1x1x1x1.rank)
  bcast_S1x1x1x1_S16x256x96x96_0_1_2_3 : S1x1x1x1.BroadcastsInDim S16x256x96x96 (![0, 1, 2, 3] : Fin 4 → Fin S16x256x96x96.rank)
  dot_S16x256x9216_S16x256x9216_S16x256x256_2_2_1_1_0_0_wf : DotDims.WF S16x256x9216 S16x256x9216 S16x256x256 [2] [2] [1] [1] [0] [0]
  dot_S16x256x256_S16x256x9216_S16x256x9216_2_1_1_2_0_0_wf : DotDims.WF S16x256x256 S16x256x9216 S16x256x9216 [2] [1] [1] [2] [0] [0]

variable [Facts₀]

def dot_S16x256x9216_S16x256x9216_S16x256x256_2_2_1_1_0_0 : DotDims S16x256x9216 S16x256x9216 S16x256x256 where
  lhsContracting := [2]
  rhsContracting := [2]
  lhsNonContracting := [1]
  rhsNonContracting := [1]
  lhsBatch := [0]
  rhsBatch := [0]
  wf := dot_S16x256x9216_S16x256x9216_S16x256x256_2_2_1_1_0_0_wf
def dot_S16x256x256_S16x256x9216_S16x256x9216_2_1_1_2_0_0 : DotDims S16x256x256 S16x256x9216 S16x256x9216 where
  lhsContracting := [2]
  rhsContracting := [1]
  lhsNonContracting := [1]
  rhsNonContracting := [2]
  lhsBatch := [0]
  rhsBatch := [0]
  wf := dot_S16x256x256_S16x256x9216_S16x256x9216_2_1_1_2_0_0_wf

class Facts : Prop extends Facts₀ where

variable [Facts]
-- ==== Proof.Attention.lean ====
/-
  Channel attention on a stack of matrices, as one function on the extended reals.

  For a matrix X with c rows and n columns (one batch entry, its two image axes flattened):
    * energy X p q = Σ_k X p k · X q k, the Gram matrix of the rows;
    * gap E p q = (max_j E p j) − E p q, never below zero where the row is finite;
    * soft D p q = exp (D p q − max_j D p j) / Σ_j exp (D p j − max_j D p j), the row-wise softmax
      written the numerically safe way (the row maximum subtracted first);
    * attn X = soft (gap (energy X));
    * the result row p, column k is  γ · Σ_j attn X p j · X j k  +  X p k.
  Both programs compute this; they differ in the order and grouping of the sums only, which addition on
  the extended reals does not see (it is commutative and associative there), so no finiteness is needed.
  The maxima start from negative infinity, the least element: they are suprema over the row.

  On a whole [16, 256, 96, 96] argument the rows of batch entry b are read through the row-major
  flattening to [16, 256, 9216], and the result is flattened back.
-/
import Idealize.ShloMosaic.PureOps.Ideal
import Idealize.ShloMosaic.Lib.ValueIdx
import Idealize.ShloMosaic.Lib.Pipeline.Value

noncomputable section

namespace Cam

open Idealize.ShloMosaic Idealize.ShloMosaic.ValueIdx
open scoped BigOperators

/-! ## One matrix -/

section Matrix

variable {c n : ℕ}

/-- The Gram matrix of the rows. -/
def energy (X : Fin c → Fin n → EReal) (p q : Fin c) : EReal := ∑ k : Fin n, X p k * X q k

/-- The row maximum minus the entry. -/
def gap (E : Fin c → Fin c → EReal) (p q : Fin c) : EReal := (Finset.univ.sup fun j => E p j) - E p q

/-- The softmax numerator: the exponential of the entry less the row maximum. -/
def numer (D : Fin c → Fin c → EReal) (p q : Fin c) : EReal := Ideal.exp (D p q - Finset.univ.sup fun j => D p j)

/-- The row-wise softmax. -/
def soft (D : Fin c → Fin c → EReal) (p q : Fin c) : EReal := Ideal.div (numer D p q) (∑ j : Fin c, numer D p j)

/-- The attention weights of a matrix. -/
def attn (X : Fin c → Fin n → EReal) : Fin c → Fin c → EReal := soft (gap (energy X))

/-- The attended rows: row p is the attention-weighted combination of all rows. -/
def attend (X : Fin c → Fin n → EReal) (p : Fin c) (k : Fin n) : EReal := ∑ j : Fin c, attn X p j * X j k

end Matrix

/-! ## The stack -/

abbrev S4 : Shape := ⟨4, ![16, 256, 96, 96]⟩
abbrev S3 : Shape := ⟨3, ![16, 256, 9216]⟩
abbrev Sg : Shape := ⟨1, ![1]⟩

/-- Batch entry b of a [16, 256, 9216] stack, as a matrix. -/
def rows (q : S3.Idx → EReal) (b : Fin 16) : Fin 256 → Fin 9216 → EReal := fun p k => q (ix3 b p k)

/-- The attended stack. -/
def attend3 (q : S3.Idx → EReal) : S3.Idx → EReal := fun i =>
  attend (rows q ⟨(i 0).val, (i 0).isLt⟩) ⟨(i 1).val, (i 1).isLt⟩ ⟨(i 2).val, (i 2).isLt⟩

theorem attend3_apply (q : S3.Idx → EReal) (b : Fin 16) (p : Fin 256) (k : Fin 9216) :
    attend3 q (ix3 b p k) = attend (rows q b) p k := rfl

/-- Scaled by γ and added to the input. -/
def blend3 (q : S3.Idx → EReal) (g : Sg.Idx → EReal) : S3.Idx → EReal := fun i => g (ix1 0) * attend3 q i + q i

theorem blend3_apply (q : S3.Idx → EReal) (g : Sg.Idx → EReal) (b : Fin 16) (p : Fin 256) (k : Fin 9216) :
    blend3 q g (ix3 b p k) = g (ix1 0) * attend (rows q b) p k + rows q b p k := rfl

/-- The whole result on a [16, 256, 96, 96] argument: flatten the image axes, blend, flatten back. -/
def result (h43 : S4.ShapeCasts S3) (h34 : S3.ShapeCasts S4) (x : S4.Idx → EReal) (g : Sg.Idx → EReal) : S4.Idx → EReal :=
  shapeCast S4 (blend3 (shapeCast S3 x h43) g) h34

/-- Read on the four axes: flattening back undoes the flattening of the input, so the input is added as it is. -/
theorem result_eq (h43 : S4.ShapeCasts S3) (h34 : S3.ShapeCasts S4) (x : S4.Idx → EReal) (g : Sg.Idx → EReal) :
    result h43 h34 x g = fun i => g (ix1 0) * shapeCast S4 (attend3 (shapeCast S3 x h43)) h34 i + x i := by
  funext i
  have e : shapeCast S4 (shapeCast S3 x h43) h34 i = x i := congrFun (shapeCast_shapeCast x h43 h34) i
  rw [← e]
  rfl

end Cam

end
-- ==== Proof.LibRowReduce.lean ====
/-
  Reductions along the rows of a matrix, at the ideal values: a reduction over axis 1 of an a × b array, read
  at row p. A maximum that starts from negative infinity is the supremum of the row's entries (the order of
  folding does not matter and the start is the least element); a sum that starts from zero is the sum of the
  row's entries. For any extents.
-/
import Idealize.ShloMosaic.PureOps.Ideal.Laws
import Idealize.ShloMosaic.Lib.ValueIdx

noncomputable section

namespace Cert.LibRowReduce

open Idealize.ShloMosaic Idealize.ShloMosaic.ValueIdx
open scoped BigOperators

/-- The f32 word of negative infinity denotes the least extended real. -/
theorem ofBits_neg_inf : Ideal.ofBits .f32 0xFF800000#32 = (⊥ : EReal) := by simp [Ideal.ofBits, Ideal.ieee]

/-- The coordinate inserted on axis 1 of a row index. -/
theorem lift_row {a b : Nat} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The maximum of each row from negative infinity, at row p: the supremum over the columns. -/
theorem rowMax_apply {a b : Nat} (y : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ y 0xFF800000#32 h hφ hacc (ix1 p)
      = (Finset.univ : Finset (Fin b)).sup fun k => y (ix2 p k) := by
  refine (Ideal.multiReduction_maximumf_single y _ h hφ hacc (ix1 p)).trans ?_
  rw [show FloatOps.ofBits (F := Ideal) .f32 0xFF800000#32 = (⊥ : EReal) from ofBits_neg_inf]
  exact Finset.sup_congr rfl fun k _ => congrArg y (lift_row h p k)

/-- The sum of each row from zero, at row p: the sum over the columns. -/
theorem rowSum_apply {a b : Nat} (y : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ y 0x00000000#32 h hφ hacc (ix1 p)
      = ∑ k : Fin b, y (ix2 p k) := by
  refine (Ideal.multiReduction_add_single y _ h hφ hacc (ix1 p)).trans ?_
  exact Finset.sum_congr rfl fun k _ => congrArg y (lift_row h p k)

end Cert.LibRowReduce
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.Rows.lean ====
/-
  The row-wise steps between the energy matrix and the attention weights, each read at an entry.

  For a 256 × 256 matrix E the kernel forms, row by row,
    the gap      D p q = (max_j E p j) − E p q,
    the numerator N p q = exp (D p q − max (−∞) (max_j D p j)),
    the weight   A p q = N p q / Σ_j N p j,
  each row maximum and row sum being kept as a column and spread back over the row. At an entry these are the
  specification's `gap`, `numer` and `soft`: the maxima start from negative infinity, so they are suprema,
  and the maximum with negative infinity changes nothing.
-/
import proofs.«107731_j35029753266217_1_alg».proof.Proof.Gen.KernelIdeal
import proofs.«107731_j35029753266217_1_alg».proof.Proof.Attention
import proofs.«107731_j35029753266217_1_alg».proof.Proof.LibRowReduce
import proofs.«107731_j35029753266217_1_alg».proof.Proof.LibKeepdims

noncomputable section

namespace Cert.KernelIdeal.Body

open Cert.KernelIdeal Cert.KernelIdeal.Gen Idealize.ShloMosaic Idealize.ShloMosaic.ValueIdx
open scoped BigOperators

/-- A matrix of the kernel read as a function of its two coordinates. -/
def entries (E : FVec Ideal S256x256 .f32) : Fin 256 → Fin 256 → EReal := fun p q => E (ix2 p q)

/-- The row maxima of a matrix, spread back over the rows. -/
def rowMaxSpread (Y : FVec Ideal S256x256 .f32) : FVec Ideal S256x256 .f32 :=
  broadcastTo S256x256 (shapeCast S256x1 (multiReduction .maximumf [1] S256 Y 0xFF800000#32 reduces_S256x256_S256 (.inl rfl) rfl) shapeCasts_S256_S256x1) broadcasts_S256x1_S256x256

theorem rowMaxSpread_apply (Y : FVec Ideal S256x256 .f32) (p q : Fin 256) :
    rowMaxSpread Y (ix2 p q) = Finset.univ.sup fun j => entries Y p j := by
  unfold rowMaxSpread
  refine (broadcastTo_shapeCast_column_apply _ shapeCasts_S256_S256x1 broadcasts_S256x1_S256x256 p q).trans ?_
  exact Cert.LibRowReduce.rowMax_apply Y reduces_S256x256_S256 _ _ p

/-- The gap: the row maximum less the entry. -/
def gapRows (E : FVec Ideal S256x256 .f32) : FVec Ideal S256x256 .f32 := subf (rowMaxSpread E) E

theorem gapRows_apply (E : FVec Ideal S256x256 .f32) (p q : Fin 256) :
    gapRows E (ix2 p q) = Cam.gap (entries E) p q := by
  show rowMaxSpread E (ix2 p q) - E (ix2 p q) = _
  rw [rowMaxSpread_apply]
  rfl

theorem entries_gapRows (E : FVec Ideal S256x256 .f32) : entries (gapRows E) = Cam.gap (entries E) :=
  funext fun p => funext fun q => gapRows_apply E p q

/-- The numerator: the exponential of the entry less the row maximum, the maximum first taken against negative infinity. -/
def numerRows (D : FVec Ideal S256x256 .f32) : FVec Ideal S256x256 .f32 :=
  exp (subf D (broadcastTo S256x256 (shapeCast S256x1
    (maximumf (broadcast S256 (Scalar.ofBits .f32 0xFF800000#32)) (multiReduction .maximumf [1] S256 D 0xFF800000#32 reduces_S256x256_S256 (.inl rfl) rfl))
    shapeCasts_S256_S256x1) broadcasts_S256x1_S256x256))

theorem numerRows_apply (D : FVec Ideal S256x256 .f32) (p q : Fin 256) :
    numerRows D (ix2 p q) = Cam.numer (entries D) p q := by
  unfold numerRows
  show Ideal.exp (D (ix2 p q) - _) = _
  rw [broadcastTo_shapeCast_column_apply _ shapeCasts_S256_S256x1 broadcasts_S256x1_S256x256 p q]
  show Ideal.exp (D (ix2 p q) - max (Ideal.ofBits .f32 0xFF800000#32) _) = _
  rw [Cert.LibRowReduce.ofBits_neg_inf, max_bot_left]
  exact congrArg (fun z => Ideal.exp (D (ix2 p q) - z)) (Cert.LibRowReduce.rowMax_apply D reduces_S256x256_S256 _ _ p)

theorem entries_numerRows (D : FVec Ideal S256x256 .f32) : entries (numerRows D) = Cam.numer (entries D) :=
  funext fun p => funext fun q => numerRows_apply D p q

/-- The weights: each numerator over its row's sum. -/
def normRows (N : FVec Ideal S256x256 .f32) : FVec Ideal S256x256 .f32 :=
  divf N (broadcastTo S256x256 (shapeCast S256x1 (multiReduction .add [1] S256 N 0x00000000#32 reduces_S256x256_S256 (.inl rfl) rfl) shapeCasts_S256_S256x1) broadcasts_S256x1_S256x256)

theorem normRows_apply (N : FVec Ideal S256x256 .f32) (p q : Fin 256) :
    normRows N (ix2 p q) = Ideal.div (entries N p q) (∑ j : Fin 256, entries N p j) := by
  unfold normRows
  show Ideal.div (N (ix2 p q)) _ = _
  rw [broadcastTo_shapeCast_column_apply _ shapeCasts_S256_S256x1 broadcasts_S256x1_S256x256 p q]
  exact congrArg (fun z => Ideal.div (N (ix2 p q)) z) (Cert.LibRowReduce.rowSum_apply N reduces_S256x256_S256 _ _ p)

/-- From the energy matrix to the attention weights (their change of float format is the identity here). -/
def softRows (E : FVec Ideal S256x256 .f32) : FVec Ideal S256x256 .bf16 :=
  truncf .bf16 (normRows (numerRows (gapRows E))) bitsLt_bf16_f32

theorem softRows_apply (E : FVec Ideal S256x256 .f32) (p q : Fin 256) :
    softRows E (ix2 p q) = Cam.soft (Cam.gap (entries E)) p q := by
  show normRows (numerRows (gapRows E)) (ix2 p q) = _
  rw [normRows_apply, entries_numerRows, entries_gapRows]
  rfl

end Cert.KernelIdeal.Body

end
-- ==== Proof.LibGram.lean ====
/-
  A matrix times the transpose of a matrix, read at an index, at the ideal values: for the dimension numbers
  "contract the left operand's axis 1 with the right operand's axis 1, no batch axis" — the record a product
  A · Bᵀ of an m × k and an n × k matrix prints — the matrix unit's product into a zero accumulator and the
  host's `dot_general` are both, at (a, b), the sum over c of A (a, c) * B (b, c). With B = A it is the Gram
  matrix of the rows of A.
-/
import Idealize.ShloMosaic.Lib.ValueIdx
import Idealize.ShloMosaic.PureOps.Ideal.Laws

noncomputable section

namespace Cert.LibGram

open Idealize.ShloMosaic Idealize.ShloMosaic.ValueIdx
open scoped BigOperators

variable {m k n : Nat} {φ₁ φ₂ : FTy}

/-- The record: both contracting axes are axis 1, the kept axes are each operand's axis 0, no batch axis. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

theorem lhsIdx_eq (w : DotDims.WF ⟨2, ![m, k]⟩ ⟨2, ![n, k]⟩ ⟨2, ![m, n]⟩ [1] [1] [0] [0] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![n, k]⟩ ⟨2, ![m, n]⟩ [1] [1] [0] [0] [] [])
    (a : Fin m) (b : Fin n) (c : Fin k) :
    (dims w).rhsIdx (ix2 a b) ((contrEquiv1 (dims w) k rfl rfl).symm c) = ix2 b c := by
  have c2 := contrEquiv1_symm_val (dims w) k rfl rfl c
  funext ax; apply Fin.ext
  match ax with
  | ⟨0, _⟩ => simp [DotDims.rhsIdx]; rfl
  | ⟨1, _⟩ => simp [DotDims.rhsIdx]; exact c2

/-- The matrix unit's product A · Bᵀ into a zero accumulator at (a, b): the sum over the shared column index. -/
theorem matmul_zero_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (dims w) prec A B (constant ⟨2, ![m, n]⟩ .f32 0x00000000#32) (ix2 a b) = ∑ c : Fin k, A (ix2 a c) * B (ix2 b c) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

/-- The host's product A · Bᵀ at (a, b): the same sum. -/
theorem dotGeneral_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    Host.dotGeneral (dims w) prec A B (ix2 a b) = ∑ c : Fin k, A (ix2 a c) * B (ix2 b c) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

end Cert.LibGram
-- ==== Proof.LibSums.lean ====
import Idealize.ShloMosaic.Lib.ValueIdx

/-! # A sum taken tile by tile

A sum over `a · b` consecutive positions is the sum over `a` tiles of the sums over each tile's `b` positions; and a sum
whose terms vanish past position `n` is the sum of its first `n` terms. Stated for any commutative additive monoid. -/

namespace Cert.Sums

open scoped BigOperators

variable {M : Type} [AddCommMonoid M]

/-- Tile by tile: the sums over the tiles `k·b … k·b + b − 1`, `k < a`, add up to the sum over the first `a·b` positions. -/
theorem sum_tiles (a b : ℕ) (f : ℕ → M) :
    ∑ k ∈ Finset.range a, ∑ n : Fin b, f (k * b + n.val) = ∑ v ∈ Finset.range (a * b), f v := by
  induction a with
  | zero => simp
  | succ a ih =>
    rw [Finset.sum_range_succ, ih, Nat.succ_mul, Finset.sum_range_add]
    congr 1
    exact (Finset.sum_range (fun x => f (a * b + x))).symm

/-- Terms that vanish from position `n` on do not count. -/
theorem sum_range_of_tail_zero (n e : ℕ) (f : ℕ → M) (h : ∀ x, f (n + x) = 0) :
    ∑ v ∈ Finset.range (n + e), f v = ∑ v : Fin n, f v.val := by
  rw [Finset.sum_range_add, Finset.sum_range, Finset.sum_eq_zero (fun x _ => h x), add_zero]

end Cert.Sums
-- ==== Proof.Energy.lean ====
/-
  The energy matrix of one batch entry, accumulated over nine column chunks.

  The kernel reads the 256 × 9216 block of a batch entry in nine chunks of 1024 columns; each chunk contributes
  its own Gram matrix, Σ_k X p (o + k) · X q (o + k) over the chunk's columns o … o + 1023, and the nine are
  added one after the other onto zero. A sum over 9 · 1024 consecutive columns is the sum of the nine chunk sums,
  so the accumulated matrix is the Gram matrix of the whole rows: the specification's `energy`.
-/
import proofs.«107731_j35029753266217_1_alg».proof.Proof.Gen.KernelIdeal
import proofs.«107731_j35029753266217_1_alg».proof.Proof.Attention
import proofs.«107731_j35029753266217_1_alg».proof.Proof.LibGram
import proofs.«107731_j35029753266217_1_alg».proof.Proof.LibSums
import Idealize.ShloMosaic.Lib.ValueLayout
import Idealize.ShloMosaic.Lib.Pipeline.FrameBody

noncomputable section

namespace Cert.KernelIdeal.Body

open Cert.KernelIdeal Cert.KernelIdeal.Gen Idealize.ShloMosaic Idealize.ShloMosaic.ValueIdx
open scoped BigOperators

/-- The block of one batch entry, a [1, 256, 9216] array, read as a 256 × 9216 matrix. -/
def blockRows (x0 : Vec Ideal S1x256x9216 .f32) : Fin 256 → Fin 9216 → EReal := fun p n => x0 (ix3 (0 : Fin 1) p n)

/-- Columns o … o + 1023 of the block, all rows. -/
abbrev chunkRect (o : ℕ) (inb : ∀ a, (![0, 0, o] : Fin 3 → Nat) a + S1x256x1024.size a ≤ S1x256x9216.size a) : Rect S1x256x9216 :=
  Rect.unit (s := S1x256x9216) ![0, 0, o] S1x256x1024.size inb

/-- A chunk loaded from the block holds, at (p, k), the block's entry at row p, column o + k. -/
theorem ld_chunk (x0 : Vec Ideal S1x256x9216 .f32) (o : ℕ)
    (inb : ∀ a, (![0, 0, o] : Fin 3 → Nat) a + S1x256x1024.size a ≤ S1x256x9216.size a)
    (u : Fin 1) (p : Fin 256) (k : Fin 1024) (n : Fin 9216) (hn : n.val = o + k.val) :
    View.ld x0 (chunkRect o inb) (ix3 u p k) = blockRows x0 p n := by
  show x0 ((chunkRect o inb).idx (ix3 u p k)) = x0 (ix3 (0 : Fin 1) p n)
  refine congrArg x0 (funext fun a => Fin.ext ?_)
  have hu : u.val = 0 := by omega
  match a with
  | ⟨0, _⟩ => show 0 + 1 * u.val = 0; omega
  | ⟨1, _⟩ => show 0 + 1 * p.val = p.val; omega
  | ⟨2, _⟩ => show o + 1 * k.val = n.val; omega

/-- The Gram matrix of one loaded chunk (its rounding to the narrower float format is the identity here). -/
def gram (v : Vec Ideal S1x256x1024 .f32) : FVec Ideal S256x256 .f32 :=
  matmul dot_S256x1024_S256x1024_S256x256_1_1_0_0_n_n none
    (truncf .bf16 (shapeCast S256x1024 v shapeCasts_S1x256x1024_S256x1024) bitsLt_bf16_f32)
    (truncf .bf16 (shapeCast S256x1024 v shapeCasts_S1x256x1024_S256x1024) bitsLt_bf16_f32)
    (constant S256x256 .f32 0x00000000#32)

theorem gram_apply (v : Vec Ideal S1x256x1024 .f32) (p q : Fin 256) :
    gram v (ix2 p q) = ∑ k : Fin 1024, v (ix3 (0 : Fin 1) p k) * v (ix3 (0 : Fin 1) q k) := by
  unfold gram
  refine (Cert.LibGram.matmul_zero_apply dot_S256x1024_S256x1024_S256x256_1_1_0_0_n_n_wf none _ _ p q).trans ?_
  refine Finset.sum_congr rfl fun k _ => ?_
  show shapeCast S256x1024 v _ (ix2 p k) * shapeCast S256x1024 v _ (ix2 q k) = _
  rw [shapeCast_1ab_ab_apply, shapeCast_1ab_ab_apply]

/-- The product of rows p and q of the block at column v, zero past the last column. -/
def prodAt (x0 : Vec Ideal S1x256x9216 .f32) (p q : Fin 256) (v : ℕ) : EReal :=
  if h : v < 9216 then blockRows x0 p ⟨v, h⟩ * blockRows x0 q ⟨v, h⟩ else 0

/-- The Gram matrix of the chunk at columns o … o + 1023: the products summed over those columns. -/
theorem gram_chunk (x0 : Vec Ideal S1x256x9216 .f32) (o : ℕ)
    (inb : ∀ a, (![0, 0, o] : Fin 3 → Nat) a + S1x256x1024.size a ≤ S1x256x9216.size a) (ho : o + 1024 ≤ 9216)
    (p q : Fin 256) :
    gram (View.ld x0 (chunkRect o inb)) (ix2 p q) = ∑ k : Fin 1024, prodAt x0 p q (o + k.val) := by
  rw [gram_apply]
  refine Finset.sum_congr rfl fun k _ => ?_
  have hk : o + k.val < 9216 := by have := k.isLt; omega
  rw [prodAt, dif_pos hk, ld_chunk x0 o inb 0 p k ⟨o + k.val, hk⟩ rfl, ld_chunk x0 o inb 0 q k ⟨o + k.val, hk⟩ rfl]

/-- Nine Gram matrices added one after the other onto zero. -/
def energyAcc (l0 l1 l2 l3 l4 l5 l6 l7 l8 : Vec Ideal S1x256x1024 .f32) : FVec Ideal S256x256 .f32 :=
  addf (addf (addf (addf (addf (addf (addf (addf (addf (broadcast S256x256 (Scalar.ofBits .f32 0x00000000#32)) (gram l0)) (gram l1))
    (gram l2)) (gram l3)) (gram l4)) (gram l5)) (gram l6)) (gram l7)) (gram l8)

/-- Nine terms added one after the other onto zero are their sum. -/
theorem sum_nine (f : ℕ → EReal) :
    0 + f 0 + f 1 + f 2 + f 3 + f 4 + f 5 + f 6 + f 7 + f 8 = ∑ c ∈ Finset.range 9, f c := by
  simp only [Finset.sum_range_succ, Finset.sum_range_zero]

/-- The nine chunks' Gram matrices add up to the Gram matrix of the whole rows. -/
theorem energyAcc_apply (x0 : Vec Ideal S1x256x9216 .f32)
    (i0 : ∀ a, (![0, 0, 0] : Fin 3 → Nat) a + S1x256x1024.size a ≤ S1x256x9216.size a)
    (i1 : ∀ a, (![0, 0, 1024] : Fin 3 → Nat) a + S1x256x1024.size a ≤ S1x256x9216.size a)
    (i2 : ∀ a, (![0, 0, 2048] : Fin 3 → Nat) a + S1x256x1024.size a ≤ S1x256x9216.size a)
    (i3 : ∀ a, (![0, 0, 3072] : Fin 3 → Nat) a + S1x256x1024.size a ≤ S1x256x9216.size a)
    (i4 : ∀ a, (![0, 0, 4096] : Fin 3 → Nat) a + S1x256x1024.size a ≤ S1x256x9216.size a)
    (i5 : ∀ a, (![0, 0, 5120] : Fin 3 → Nat) a + S1x256x1024.size a ≤ S1x256x9216.size a)
    (i6 : ∀ a, (![0, 0, 6144] : Fin 3 → Nat) a + S1x256x1024.size a ≤ S1x256x9216.size a)
    (i7 : ∀ a, (![0, 0, 7168] : Fin 3 → Nat) a + S1x256x1024.size a ≤ S1x256x9216.size a)
    (i8 : ∀ a, (![0, 0, 8192] : Fin 3 → Nat) a + S1x256x1024.size a ≤ S1x256x9216.size a)
    (p q : Fin 256) :
    energyAcc (View.ld x0 (chunkRect 0 i0)) (View.ld x0 (chunkRect 1024 i1)) (View.ld x0 (chunkRect 2048 i2))
        (View.ld x0 (chunkRect 3072 i3)) (View.ld x0 (chunkRect 4096 i4)) (View.ld x0 (chunkRect 5120 i5))
        (View.ld x0 (chunkRect 6144 i6)) (View.ld x0 (chunkRect 7168 i7)) (View.ld x0 (chunkRect 8192 i8)) (ix2 p q)
      = Cam.energy (blockRows x0) p q := by
  show Ideal.ofBits .f32 0x00000000#32 + gram _ (ix2 p q) + gram _ (ix2 p q) + gram _ (ix2 p q) + gram _ (ix2 p q) + gram _ (ix2 p q)
    + gram _ (ix2 p q) + gram _ (ix2 p q) + gram _ (ix2 p q) + gram _ (ix2 p q) = _
  rw [gram_chunk x0 0 i0 (by omega), gram_chunk x0 1024 i1 (by omega), gram_chunk x0 2048 i2 (by omega),
    gram_chunk x0 3072 i3 (by omega), gram_chunk x0 4096 i4 (by omega), gram_chunk x0 5120 i5 (by omega),
    gram_chunk x0 6144 i6 (by omega), gram_chunk x0 7168 i7 (by omega), gram_chunk x0 8192 i8 (by omega),
    Ideal.ofBits_zero_f32]
  calc _ = ∑ c ∈ Finset.range 9, ∑ n : Fin 1024, prodAt x0 p q (c * 1024 + n.val) :=
        sum_nine fun c => ∑ n : Fin 1024, prodAt x0 p q (c * 1024 + n.val)
    _ = ∑ v ∈ Finset.range (9 * 1024), prodAt x0 p q v := Cert.Sums.sum_tiles 9 1024 (prodAt x0 p q)
    _ = ∑ n : Fin 9216, prodAt x0 p q n.val := Finset.sum_range (prodAt x0 p q)
    _ = Cam.energy (blockRows x0) p q := Finset.sum_congr rfl fun n _ => by rw [prodAt, dif_pos n.isLt]

end Cert.KernelIdeal.Body

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.Chunk.lean ====
/-
  One chunk of the output, read at an entry.

  For a chunk V of 1024 columns of the block (256 rows), the attention weights A (256 × 256) and the scale γ (held
  as a 1 × 1 array and spread over the chunk), the kernel stores  γ · (A · V) + V.  At row p and column k of the
  chunk this is  γ · Σ_j A p j · V j k  +  V p k.
-/
import proofs.«107731_j35029753266217_1_alg».proof.Proof.Gen.KernelIdeal
import proofs.«107731_j35029753266217_1_alg».proof.Proof.LibDot
import proofs.«107731_j35029753266217_1_alg».proof.Proof.LibKeepdims
import Idealize.ShloMosaic.Lib.ValueLayout

noncomputable section

namespace Cert.KernelIdeal.Body

open Cert.KernelIdeal Cert.KernelIdeal.Gen Idealize.ShloMosaic Idealize.ShloMosaic.ValueIdx
open scoped BigOperators

/-- What the kernel stores for one chunk: the weighted rows scaled by γ, plus the chunk itself. -/
def outChunk (A : FVec Ideal S256x256 .bf16) (g : FVec Ideal S1x1 .f32) (v : Vec Ideal S1x256x1024 .f32) : FVec Ideal S1x256x1024 .f32 :=
  shapeCast S1x256x1024
    (addf (mulf (broadcastTo S256x1024 g broadcasts_S1x1_S256x1024)
        (matmul dot_S256x256_S256x1024_S256x1024_1_0_0_1_n_n none A
          (truncf .bf16 (shapeCast S256x1024 v shapeCasts_S1x256x1024_S256x1024) bitsLt_bf16_f32)
          (constant S256x1024 .f32 0x00000000#32)))
      (shapeCast S256x1024 v shapeCasts_S1x256x1024_S256x1024))
    shapeCasts_S256x1024_S1x256x1024

/-- The 1 × 1 scale spread over the chunk reads its one entry everywhere. -/
theorem spread_scale_apply (g : FVec Ideal S1x1 .f32) (p : Fin 256) (k : Fin 1024) :
    broadcastTo S256x1024 g broadcasts_S1x1_S256x1024 (ix2 p k) = g (ix2 (0 : Fin 1) (0 : Fin 1)) := by
  refine broadcastTo_apply g broadcasts_S1x1_S256x1024 (ix2 p k) (ix2 (0 : Fin 1) (0 : Fin 1)) fun a => ?_
  match a with
  | ⟨0, _⟩ => rfl
  | ⟨1, _⟩ => rfl

theorem outChunk_apply (A : FVec Ideal S256x256 .bf16) (g : FVec Ideal S1x1 .f32) (v : Vec Ideal S1x256x1024 .f32)
    (u : Fin 1) (p : Fin 256) (k : Fin 1024) :
    outChunk A g v (ix3 u p k)
      = g (ix2 (0 : Fin 1) (0 : Fin 1)) * (∑ j : Fin 256, A (ix2 p j) * v (ix3 (0 : Fin 1) j k)) + v (ix3 (0 : Fin 1) p k) := by
  unfold outChunk
  rw [shapeCast_ab_1ab_apply]
  show broadcastTo S256x1024 g _ (ix2 p k) * matmul _ none A _ _ (ix2 p k) + shapeCast S256x1024 v _ (ix2 p k) = _
  rw [shapeCast_1ab_ab_apply, spread_scale_apply]
  refine congrArg (fun z => g (ix2 (0 : Fin 1) (0 : Fin 1)) * z + v (ix3 (0 : Fin 1) p k)) ?_
  refine (Cert.LibDot.matmul_zero_apply dot_S256x256_S256x1024_S256x1024_1_0_0_1_n_n_wf none A _ p k).trans ?_
  refine Finset.sum_congr rfl fun j _ => ?_
  show A (ix2 p j) * shapeCast S256x1024 v _ (ix2 j k) = _
  rw [shapeCast_1ab_ab_apply]

/-- The scale as the kernel holds it, a one-entry vector viewed 1 × 1, reads that entry. -/
theorem scale_apply (x1 : Vec Ideal S1 .f32) :
    shapeCast S1x1 x1 shapeCasts_S1_S1x1 (ix2 (0 : Fin 1) (0 : Fin 1)) = x1 (ix1 (0 : Fin 1)) :=
  shapeCast_a_a1_apply x1 shapeCasts_S1_S1x1 0 0

end Cert.KernelIdeal.Body

end
-- ==== Proof.Block.lean ====
/-
  What one grid point leaves in its output block, as one function of the point's input blocks.

  The point's input is the 256 × 9216 block X of one batch entry and the one-entry scale γ. The attention weights
  come from the energy accumulated over the nine column chunks; each of the nine stores writes, for its chunk of
  1024 columns,  γ · (A · V) + V  with V the chunk. Together the nine stores tile the output block, and at row p,
  column n the block holds  γ · Σ_j attn X p j · X j n + X p n, whichever chunk n lies in.
-/
import proofs.«107731_j35029753266217_1_alg».proof.Proof.Gen.KernelIdeal.Frame
import proofs.«107731_j35029753266217_1_alg».proof.Proof.Attention
import proofs.«107731_j35029753266217_1_alg».proof.Proof.Rows
import proofs.«107731_j35029753266217_1_alg».proof.Proof.Energy
import proofs.«107731_j35029753266217_1_alg».proof.Proof.Chunk
import Idealize.ShloMosaic.Lib.Pipeline.Value

noncomputable section

namespace Cert.KernelIdeal.Body

open Cert.KernelIdeal Cert.KernelIdeal.Gen Idealize.ShloMosaic Idealize.ShloMosaic.ValueIdx
open scoped BigOperators

/-- The attention weights as the kernel forms them from the block's nine chunks. -/
def attnMat (x0 : Vec Ideal S1x256x9216 .f32) : FVec Ideal S256x256 .bf16 :=
  softRows (energyAcc (View.ld x0 r0_0) (View.ld x0 r0_1) (View.ld x0 r0_2) (View.ld x0 r0_3) (View.ld x0 r0_4)
    (View.ld x0 r0_5) (View.ld x0 r0_6) (View.ld x0 r0_7) (View.ld x0 r0_8))

theorem attnMat_apply (x0 : Vec Ideal S1x256x9216 .f32) (p q : Fin 256) :
    attnMat x0 (ix2 p q) = Cam.attn (blockRows x0) p q := by
  unfold attnMat
  rw [softRows_apply]
  have e : entries (energyAcc (View.ld x0 r0_0) (View.ld x0 r0_1) (View.ld x0 r0_2) (View.ld x0 r0_3) (View.ld x0 r0_4)
      (View.ld x0 r0_5) (View.ld x0 r0_6) (View.ld x0 r0_7) (View.ld x0 r0_8)) = Cam.energy (blockRows x0) :=
    funext fun a => funext fun b => energyAcc_apply x0 _ _ _ _ _ _ _ _ _ a b
  rw [e]
  rfl

/-- The scale as the point holds it. -/
def scaleMat (x1 : Vec Ideal S1 .f32) : FVec Ideal S1x1 .f32 := shapeCast S1x1 (View.ld x1 r0_9) shapeCasts_S1_S1x1

theorem scaleMat_apply (x1 : Vec Ideal S1 .f32) : scaleMat x1 (ix2 (0 : Fin 1) (0 : Fin 1)) = x1 (ix1 (0 : Fin 1)) := by
  unfold scaleMat
  rw [scale_apply]
  exact congrFun (View.ld_unit_zero (S := S1) (funext fun a => by fin_cases a; rfl) inb_S1_S1_0 x1) _

/-- The output block as one function of the input blocks. -/
def blockOut (x0 : Vec Ideal S1x256x9216 .f32) (x1 : Vec Ideal S1 .f32) : S1x256x9216.Idx → EReal := fun y =>
  x1 (ix1 (0 : Fin 1)) * Cam.attend (blockRows x0) ⟨(y 1).val, (y 1).isLt⟩ ⟨(y 2).val, (y 2).isLt⟩
    + blockRows x0 ⟨(y 1).val, (y 1).isLt⟩ ⟨(y 2).val, (y 2).isLt⟩

theorem blockOut_apply (x0 : Vec Ideal S1x256x9216 .f32) (x1 : Vec Ideal S1 .f32) (u : Fin 1) (p : Fin 256) (n : Fin 9216) :
    blockOut x0 x1 (ix3 u p n) = x1 (ix1 (0 : Fin 1)) * Cam.attend (blockRows x0) p n + blockRows x0 p n := rfl

/-- The store of the chunk at columns o … o + 1023 writes the block's function on those columns. -/
theorem piece_eq (x0 : Vec Ideal S1x256x9216 .f32) (x1 : Vec Ideal S1 .f32) (o : ℕ)
    (inb : ∀ a, (![0, 0, o] : Fin 3 → Nat) a + S1x256x1024.size a ≤ S1x256x9216.size a) (ho : o + 1024 ≤ 9216)
    (x : (chunkRect o inb).shape.Idx) :
    outChunk (attnMat x0) (scaleMat x1) (View.ld x0 (chunkRect o inb)) x = blockOut x0 x1 ((chunkRect o inb).emb x) := by
  obtain ⟨u, p, k, rfl⟩ : ∃ (u : Fin 1) (p : Fin 256) (k : Fin 1024), x = ix3 u p k := ⟨x 0, x 1, x 2, eq_ix3 x⟩
  have hk : o + k.val < 9216 := by have := k.isLt; omega
  have hu : u.val = 0 := by omega
  have hemb : (chunkRect o inb).emb (ix3 u p k) = ix3 (0 : Fin 1) p (⟨o + k.val, hk⟩ : Fin 9216) :=
    funext fun a => Fin.ext (by
      match a with
      | ⟨0, _⟩ => show 0 + 1 * u.val = 0; omega
      | ⟨1, _⟩ => show 0 + 1 * p.val = p.val; omega
      | ⟨2, _⟩ => show o + 1 * k.val = o + k.val; omega)
  rw [hemb, blockOut_apply, outChunk_apply, scaleMat_apply, ld_chunk x0 o inb 0 p k ⟨o + k.val, hk⟩ rfl]
  refine congrArg (fun z => x1 (ix1 (0 : Fin 1)) * z + blockRows x0 p ⟨o + k.val, hk⟩) ?_
  unfold Cam.attend
  refine Finset.sum_congr rfl fun j _ => ?_
  rw [attnMat_apply, ld_chunk x0 o inb 0 j k ⟨o + k.val, hk⟩ rfl]

/-- The nine stores, each in the one form. -/
theorem out0_2_pieces (x0 : Vec Ideal S1x256x9216 .f32) (x1 : Vec Ideal S1 .f32) :
    out0_2 x0 x1 = View.canon [
      ⟨r0_8, outChunk (attnMat x0) (scaleMat x1) (View.ld x0 r0_8)⟩,
      ⟨r0_7, outChunk (attnMat x0) (scaleMat x1) (View.ld x0 r0_7)⟩,
      ⟨r0_6, outChunk (attnMat x0) (scaleMat x1) (View.ld x0 r0_6)⟩,
      ⟨r0_5, outChunk (attnMat x0) (scaleMat x1) (View.ld x0 r0_5)⟩,
      ⟨r0_4, outChunk (attnMat x0) (scaleMat x1) (View.ld x0 r0_4)⟩,
      ⟨r0_3, outChunk (attnMat x0) (scaleMat x1) (View.ld x0 r0_3)⟩,
      ⟨r0_2, outChunk (attnMat x0) (scaleMat x1) (View.ld x0 r0_2)⟩,
      ⟨r0_1, outChunk (attnMat x0) (scaleMat x1) (View.ld x0 r0_1)⟩,
      ⟨r0_0, outChunk (attnMat x0) (scaleMat x1) (View.ld x0 r0_0)⟩] := rfl

/-- The block after the body is the block's function, at every entry. -/
theorem out0_2_eq (x0 : Vec Ideal S1x256x9216 .f32) (x1 : Vec Ideal S1 .f32) : out0_2 x0 x1 = blockOut x0 x1 := by
  funext y
  rw [out0_2_pieces]
  refine View.canon_apply_of_pieces (Val := Elt Ideal) (e := .f32) (blockOut x0 x1) _ ?_ y (cover0_2 _ _ _ _ _ _ _ _ _ y)
  intro pc hpc x
  simp only [List.mem_cons, List.mem_nil_iff, or_false] at hpc
  rcases hpc with rfl | rfl | rfl | rfl | rfl | rfl | rfl | rfl | rfl
  · exact piece_eq x0 x1 8192 _ (by omega) x
  · exact piece_eq x0 x1 7168 _ (by omega) x
  · exact piece_eq x0 x1 6144 _ (by omega) x
  · exact piece_eq x0 x1 5120 _ (by omega) x
  · exact piece_eq x0 x1 4096 _ (by omega) x
  · exact piece_eq x0 x1 3072 _ (by omega) x
  · exact piece_eq x0 x1 2048 _ (by omega) x
  · exact piece_eq x0 x1 1024 _ (by omega) x
  · exact piece_eq x0 x1 0 _ (by omega) x

end Cert.KernelIdeal.Body

end
-- ==== Proof.KernelValue.lean ====
/-
  The kernel's result array, as one function of its arguments.

  Grid point t works on batch entry t: its input block is rows (t, ·, ·) of the flattened argument, the scale is
  the whole one-entry array, and the block it writes back is block t of the blended stack
  γ · attend + input. The sixteen blocks tile the [16, 256, 9216] array, so after the run the array is the
  blended stack of the flattened argument; the program then flattens it back to [16, 256, 96, 96].
-/
import proofs.«107731_j35029753266217_1_alg».proof.Proof.Gen.KernelIdeal.Frame
import proofs.«107731_j35029753266217_1_alg».proof.Proof.Attention
import proofs.«107731_j35029753266217_1_alg».proof.Proof.Block
import Idealize.ShloMosaic.Lib.Pipeline.Value
import Idealize.ShloMosaic.Lib.StableHlo.Run
import Idealize.ShloMosaic.Lib.Tactic

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps over the grid: the input and output windows sit at batch entry t, the scale at its one block. -/
theorem idx_facts : ∀ t : Fin cfg0.N,
    win0_0.index t (0 : Fin 3) = t.val ∧ win0_0.index t (1 : Fin 3) = 0 ∧ win0_0.index t (2 : Fin 3) = 0
    ∧ win0_2.index t (0 : Fin 3) = t.val ∧ win0_2.index t (1 : Fin 3) = 0 ∧ win0_2.index t (2 : Fin 3) = 0
    ∧ win0_1.index t (0 : Fin 1) = 0 :=
  (by decide +kernel : ∀ t : Fin grid0.N,
    win0_0.index t (0 : Fin 3) = t.val ∧ win0_0.index t (1 : Fin 3) = 0 ∧ win0_0.index t (2 : Fin 3) = 0
    ∧ win0_2.index t (0 : Fin 3) = t.val ∧ win0_2.index t (1 : Fin 3) = 0 ∧ win0_2.index t (2 : Fin 3) = 0
    ∧ win0_1.index t (0 : Fin 1) = 0)

/-- The input block at point t is batch entry t of the flattened argument. -/
theorem iblk0_apply (c : Dev nD) (t : Fin cfg0.N) (u : Fin 1) (p : Fin 256) (n : Fin 9216) (b : Fin 16) (hb : b.val = t.val) :
    (iblk (F := Ideal) m c 0 t : Vec Ideal S1x256x9216 .f32) (ix3 u p n)
      = (V (F := Ideal) m c main_v0 : S16x256x9216.Idx → EReal) (ix3 b p n) := by
  obtain ⟨e0, e1, e2, -⟩ := idx_facts t
  have hu : u.val = 0 := by omega
  unfold iblk
  rw [View.read_apply]
  show V m c main_v0 _ = V m c main_v0 _
  refine congrArg (V m c main_v0) (funext fun a => Fin.ext ?_)
  match a with
  | ⟨0, _⟩ => show win0_0.index t (0 : Fin 3) * 1 + 1 * u.val = b.val; rw [e0, hb]; omega
  | ⟨1, _⟩ => show win0_0.index t (1 : Fin 3) * 256 + 1 * p.val = p.val; rw [e1]; omega
  | ⟨2, _⟩ => show win0_0.index t (2 : Fin 3) * 9216 + 1 * n.val = n.val; rw [e2]; omega

/-- The scale block at any point is the whole scale array. -/
theorem iblk1_apply (c : Dev nD) (t : Fin cfg0.N) (u : Fin 1) :
    (iblk (F := Ideal) m c 1 t : Vec Ideal S1 .f32) (ix1 u)
      = (V (F := Ideal) m c main_arg1 : S1.Idx → EReal) (ix1 (0 : Fin 1)) := by
  obtain ⟨-, -, -, -, -, -, g0⟩ := idx_facts t
  have hu : u.val = 0 := by omega
  unfold iblk
  rw [View.read_apply]
  show V m c main_arg1 _ = V m c main_arg1 _
  refine congrArg (V m c main_arg1) (funext fun a => Fin.ext ?_)
  match a with
  | ⟨0, _⟩ => show win0_1.index t (0 : Fin 1) * 1 + 1 * u.val = 0; rw [g0]; omega

/-- What point t writes back is block t of the blended stack of the arrays as the region finds them. -/
theorem flushed_eq (c : Dev nD) (t : Fin cfg0.N) :
    (dats (F := Ideal) m 0 c).flushed 2 t
      = ((cfg0.win 2).blk t).view.read (Elt Ideal) (Cam.blend3 (V m c main_v0) (V m c main_arg1)) := by
  show (cfg0.win 2).cut (grid0.coords t) ((dats m 0 c).after 2 t) = _
  rw [after0_2, Body.out0_2_eq]
  obtain ⟨e0, e1, e2, f0, f1, f2, g0⟩ := idx_facts t
  have hN : cfg0.N = 16 := N_0
  have hb : t.val < 16 := by have := t.isLt; omega
  funext j
  obtain ⟨u, p, n, rfl⟩ : ∃ (u : Fin 1) (p : Fin 256) (n : Fin 9216), j = ix3 u p n := ⟨j 0, j 1, j 2, eq_ix3 j⟩
  have hu : u.val = 0 := by omega
  have hemb : ((cfg0.win 2).blk t).view.emb (ix3 u p n) = ix3 (⟨t.val, hb⟩ : Fin 16) p n :=
    funext fun a => Fin.ext (by
      match a with
      | ⟨0, _⟩ => show win0_2.index t (0 : Fin 3) * 1 + 1 * u.val = t.val; rw [f0]; omega
      | ⟨1, _⟩ => show win0_2.index t (1 : Fin 3) * 256 + 1 * p.val = p.val; rw [f1]; omega
      | ⟨2, _⟩ => show win0_2.index t (2 : Fin 3) * 9216 + 1 * n.val = n.val; rw [f2]; omega)
  show Body.blockOut (iblk m c 0 t) (iblk m c 1 t) (ix3 u p n)
    = Cam.blend3 (V m c main_v0) (V m c main_arg1) (((cfg0.win 2).blk t).view.emb (ix3 u p n))
  rw [hemb, Cam.blend3_apply, Body.blockOut_apply]
  have hrows : Body.blockRows (iblk m c 0 t) = Cam.rows (V m c main_v0) ⟨t.val, hb⟩ :=
    funext fun p' => funext fun n' => iblk0_apply m c t 0 p' n' ⟨t.val, hb⟩ rfl
  rw [hrows, iblk1_apply m c t 0]

/-- An index of the array is in point t's block iff each coordinate is in the block's range on its axis. -/
theorem mem_blk (t : Fin cfg0.N) (i : S16x256x9216.Idx) :
    i ∈ ((cfg0.win 2).blk t).view.set ↔ ∀ a : Fin 3, win0_2.index t a * S1x256x9216.size a ≤ (i a).val
      ∧ (i a).val < win0_2.index t a * S1x256x9216.size a + S1x256x9216.size a := by
  show i ∈ ((View.whole main_v1).slice (win0_2.rect t)).set ↔ _
  rw [View.set_slice_whole, Rect.mem_set_unit]
  exact Iff.rfl

/-- Every index of the array lies in the block of the point of its batch entry. -/
theorem cover (i : S16x256x9216.Idx) :
    ∃ t : Fin cfg0.N, (cfg0.win 2).flush t = true ∧ i ∈ ((cfg0.win 2).blk t).view.set := by
  have hN : cfg0.N = 16 := N_0
  have hi0 : (i 0).val < 16 := (i 0).isLt
  have hi1 : (i 1).val < 256 := (i 1).isLt
  have hi2 : (i 2).val < 9216 := (i 2).isLt
  have ht : (i 0).val < cfg0.N := by omega
  obtain ⟨-, -, -, f0, f1, f2, -⟩ := idx_facts ⟨(i 0).val, ht⟩
  refine ⟨⟨(i 0).val, ht⟩, flush0_2 _, ?_⟩
  rw [mem_blk]
  intro a
  match a with
  | ⟨0, _⟩ =>
    show win0_2.index ⟨(i 0).val, ht⟩ (0 : Fin 3) * 1 ≤ (i 0).val ∧ (i 0).val < win0_2.index ⟨(i 0).val, ht⟩ (0 : Fin 3) * 1 + 1
    rw [f0]; show (i 0).val * 1 ≤ (i 0).val ∧ (i 0).val < (i 0).val * 1 + 1; omega
  | ⟨1, _⟩ =>
    show win0_2.index ⟨(i 0).val, ht⟩ (1 : Fin 3) * 256 ≤ (i 1).val ∧ (i 1).val < win0_2.index ⟨(i 0).val, ht⟩ (1 : Fin 3) * 256 + 256
    rw [f1]; omega
  | ⟨2, _⟩ =>
    show win0_2.index ⟨(i 0).val, ht⟩ (2 : Fin 3) * 9216 ≤ (i 2).val ∧ (i 2).val < win0_2.index ⟨(i 0).val, ht⟩ (2 : Fin 3) * 9216 + 9216
    rw [f2]; omega

/-- The output array after the run: the blended stack of the arrays as the region finds them. -/
theorem final (c : Dev nD) :
    (dats (F := Ideal) m 0 c).arrAt 2 cfg0.N = Cam.blend3 (V m c main_v0) (V m c main_arg1) :=
  (dats m 0 c).arrAt_eq_of_cover 2 (Cam.blend3 (V m c main_v0) (V m c main_arg1)) (fun t _ => flushed_eq m c t) cover

/-- The region finds the argument flattened to [16, 256, 9216]. -/
theorem V_main_v0 (c : Dev nD) :
    (V (F := Ideal) m c main_v0 : S16x256x9216.Idx → EReal)
      = shapeCast S16x256x9216 (m ((c : Thread nD τ).loc main_arg0)) shapeCasts_S16x256x96x96_S16x256x9216 := by
  show StableHlo.after hostOps0 (fun b => m (c, b)) (Proc.devRef .tc main_v0) = _
  after_results
  rfl

/-- After the region the program flattens the output array back to [16, 256, 96, 96]. -/
theorem tail_v2 (c : Dev nD) :
    Pipeline.afterTail₀ cfgs (dats (F := Ideal) m) 0 (V0 m) [hostOps1] c main_v2
      = shapeCast S16x256x96x96 ((dats (F := Ideal) m 0 c).arrAt 2 cfg0.N) shapeCasts_S16x256x9216_S16x256x96x96 := by
  unfold Pipeline.afterTail₀
  show StableHlo.after hostOps1 _ (Proc.devRef .tc main_v2) = _
  after_results
  have e : Pipeline.withArrays (cfgs 0).spec c (V0 m c) (fun w => (dats (F := Ideal) m 0 c).arrAt w (cfgs 0).N) (Proc.tc.devRef main_v1)
      = (dats (F := Ideal) m 0 c).arrAt 2 cfg0.N :=
    Pipeline.withArrays_arr spec0 launch0.win.arr_inj c (V0 m c) _ 2
  rw [e]
  rfl

/-- The program's result: the specification's function of the two arguments. -/
theorem result_v2 (c : Dev nD) :
    Pipeline.afterTail₀ cfgs (dats (F := Ideal) m) 0 (V0 m) [hostOps1] c main_v2
      = Cam.result shapeCasts_S16x256x96x96_S16x256x9216 shapeCasts_S16x256x9216_S16x256x96x96
          (m ((c : Thread nD τ).loc main_arg0)) (m ((c : Thread nD τ).loc main_arg1)) := by
  rw [tail_v2, final, V_main_v0, V_main_arg1]
  rfl

/-- The run, read: the result array at the specification's function of the arguments, the arguments unchanged. -/
theorem run : θ_run defs (onTc (τ := τ) (main (F := Ideal))) ⟨m, fun _ => 0, ρ⟩ fun r => ∀ c : Dev nD,
      r.2.mem ((c.tc : Thread nD τ).loc main_v2)
        = Cam.result shapeCasts_S16x256x96x96_S16x256x9216 shapeCasts_S16x256x9216_S16x256x96x96
            (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 (by decide) (by decide))).trans (result_v2 m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.Hand

end
-- ==== Proof.LibHostRowMax.lean ====
/-
  A maximum over the last axis of a three-axis array, on the extended reals.

  A reduction by maximum that starts from negative infinity is the supremum of the entries that are folded
  into a result entry: max is commutative and associative, so the order of the fold is immaterial, and the
  starting value is the least element. This file reads such a reduction of an `A × B × C` array over its last
  axis at a result index `(a, b)`: the supremum over `k < C` of the entries `(a, b, k)`, for any extents.
-/
import Idealize.ShloMosaic.PureOps.Ideal.Laws
import Idealize.ShloMosaic.Lib.ValueIdx

noncomputable section

namespace Idealize.ShloMosaic.RowMax

open Idealize.ShloMosaic Idealize.ShloMosaic.ValueIdx

/-- The f32 word of negative infinity denotes the least extended real. -/
theorem ofBits_negInf : Ideal.ofBits .f32 0xFF800000#32 = (⊥ : EReal) := by simp [Ideal.ofBits, Ideal.ieee]

/-- Of three axes, the ones other than the last are 0 and 1, whatever the extents. -/
theorem kept_axis2 {A B C : Nat} : (⟨3, ![A, B, C]⟩ : Shape).kept [2] = [0, 1] := by
  show (List.finRange 3).filter (· ∉ ([2] : List (Fin 3))) = [0, 1]
  decide

theorem kept_axis2_fst {A B C : Nat} (hh : 0 < ((⟨3, ![A, B, C]⟩ : Shape).kept [2]).length) :
    ((⟨3, ![A, B, C]⟩ : Shape).kept [2])[0] = 0 := by
  revert hh; rw [kept_axis2]; intro _; rfl

theorem kept_axis2_snd {A B C : Nat} (hh : 1 < ((⟨3, ![A, B, C]⟩ : Shape).kept [2]).length) :
    ((⟨3, ![A, B, C]⟩ : Shape).kept [2])[1] = 1 := by
  revert hh; rw [kept_axis2]; intro _; rfl

/-- A host maximum over the last axis of an `A × B × C` array, from an initial value that is negative infinity, at
    `(a, b)`: the supremum over `k < C` of the entries `(a, b, k)`. -/
theorem hostReduce_max_axis2_rank3 {A B C : Nat} (y : (⟨3, ![A, B, C]⟩ : Shape).Idx → EReal) {u : Shape}
    (init : u.Idx → EReal) (h' : (⟨3, ![A, B, C]⟩ : Shape).ReducesTo [2] ⟨2, ![A, B]⟩) (hu : 0 < u.numel)
    (hinit : init (Shape.Idx.first hu) = ⊥) (a : Fin A) (b : Fin B) :
    Host.reduce (FloatOps.maximumf (F := Ideal) (φ := .f32)) y init h' hu (ix2 a b)
      = (Finset.univ : Finset (Fin C)).sup fun k => y (ix3 a b k) := by
  rw [Host.reduce_eq_fold, hinit]
  have hd : ∀ i : (⟨3, ![A, B, C]⟩ : Shape).Idx, h'.drop i = ix2 (i 0 : Fin A) (i 1 : Fin B) := fun i => by
    funext b'
    match b' with
    | ⟨0, _⟩ => exact Fin.ext (h'.drop_apply_val_of_eq i 0 0 (by rw [kept_axis2]; exact Nat.zero_lt_two) (kept_axis2_fst _))
    | ⟨1, _⟩ => exact Fin.ext (h'.drop_apply_val_of_eq i 1 1 (by rw [kept_axis2]; exact Nat.one_lt_two) (kept_axis2_snd _))
  show (Finset.univ.filter fun i => h'.drop i = ix2 a b).sup y = _
  apply le_antisymm
  · apply Finset.sup_le
    intro i hi
    have hi2 := (Finset.mem_filter.1 hi).2
    rw [hd] at hi2
    have e0 : (i 0 : Fin A) = a := congrFun hi2 0
    have e1 : (i 1 : Fin B) = b := congrFun hi2 1
    have ei : i = ix3 a b (i 2 : Fin C) := by rw [← e0, ← e1]; exact eq_ix3 i
    rw [ei]
    exact Finset.le_sup (f := fun k : Fin C => y (ix3 a b k)) (Finset.mem_univ (i 2 : Fin C))
  · apply Finset.sup_le
    intro k _
    exact Finset.le_sup (f := y) (Finset.mem_filter.2 ⟨Finset.mem_univ _, (hd _).trans rfl⟩)

end Idealize.ShloMosaic.RowMax

end
-- ==== Proof.RefValue.lean ====
/-
  The reference program's value is the channel attention of the specification.

  The reference computes, on the [16, 256, 9216] flattening y of its argument: the Gram matrix of each batch
  entry's rows (a batched product contracting the last axes), its row maxima, the gap to the row maximum, the
  row maxima of the gap, the exponential of the gap less its row maximum, the row sums of these, their quotient
  (the softmax weights), and the batched product of the weights with y. Each stage is read here at an index
  (b, p, q) with literal extents and recognised as the specification's function of the matrix `Cam.rows y b`;
  a maximum-reduction from negative infinity is the supremum over the row, a sum-reduction from zero the sum.
  The last four operations scale the attended stack, flattened back, by γ and add the argument.
-/
import proofs.«107731_j35029753266217_1_alg».proof.Proof.Gen.ReferenceIdeal.Read
import proofs.«107731_j35029753266217_1_alg».proof.Proof.Attention
import proofs.«107731_j35029753266217_1_alg».proof.Proof.LibHostRowMax

noncomputable section

namespace Cert.ReferenceIdeal.RefValue

open Cert.ReferenceIdeal Cert.ReferenceIdeal.Gen Cert.ReferenceIdeal.Read Idealize.ShloMosaic Idealize.ShloMosaic.ValueIdx
open scoped BigOperators

variable (x0 : (⟨S16x256x96x96, .f32⟩ : BufTy).Contents (Elt Ideal))

/-- Batch entry b of the flattened argument, as a matrix. -/
abbrev X (b : Fin 16) : Fin 256 → Fin 9216 → EReal := Cam.rows (val_main_v0 (F := Ideal) x0) b

/-! ## The Gram matrix and its row maxima -/

/-- The first product at (b, p, q) is the Gram entry of rows p and q of batch entry b. -/
theorem v1_at (b : Fin 16) (p q : Fin 256) :
    val_main_v1 (F := Ideal) x0 (ix3 b p q) = Cam.energy (X x0 b) p q := by
  refine (val_main_v1_apply x0 (ix3 b p q)).trans ?_
  show _ = ∑ k : Fin 9216, val_main_v0 (F := Ideal) x0 (ix3 b p k) * val_main_v0 (F := Ideal) x0 (ix3 b q k)
  generalize val_main_v0 (F := Ideal) x0 = y0
  refine Finset.sum_congr rfl fun k _ => ?_
  have el : lidx_main_v1 (ix3 b p q) k = ix3 b p k := funext fun a => Fin.ext (by
    match a with
    | ⟨0, _⟩ => rfl
    | ⟨1, _⟩ => rfl
    | ⟨2, _⟩ => rfl)
  have er : ridx_main_v1 (ix3 b p q) k = ix3 b q k := funext fun a => Fin.ext (by
    match a with
    | ⟨0, _⟩ => rfl
    | ⟨1, _⟩ => rfl
    | ⟨2, _⟩ => rfl)
  rw [el, er]

/-- The first maximum at (b, p) is the supremum of row p of the Gram matrix. -/
theorem v2_at (b : Fin 16) (p : Fin 256) :
    val_main_v2 (F := Ideal) x0 (ix2 b p) = Finset.univ.sup fun j : Fin 256 => Cam.energy (X x0 b) p j := by
  unfold val_main_v2
  refine (RowMax.hostReduce_max_axis2_rank3 (val_main_v1 (F := Ideal) x0) (val_main_cst (F := Ideal))
    reducesTo_S16x256x256_S16x256_d2 h_S_ RowMax.ofBits_negInf b p).trans ?_
  exact Finset.sup_congr rfl fun j _ => v1_at x0 b p j

/-- The row maximum broadcast back along the row. -/
theorem v4_at (b : Fin 16) (p q : Fin 256) :
    val_main_v4 (F := Ideal) x0 (ix3 b p q) = val_main_v2 (F := Ideal) x0 (ix2 b p) := by
  refine (val_main_v4_apply x0 _).trans ((val_main_v3_apply x0 _).trans ?_)
  exact congrArg (val_main_v2 (F := Ideal) x0) (funext fun a => Fin.ext (by
    match a with
    | ⟨0, _⟩ => rfl
    | ⟨1, _⟩ => rfl))

/-- The gap to the row maximum. -/
theorem v5_at (b : Fin 16) (p q : Fin 256) :
    val_main_v5 (F := Ideal) x0 (ix3 b p q) = Cam.gap (Cam.energy (X x0 b)) p q := by
  refine (val_main_v5_apply x0 _).trans ?_
  rw [Ideal.subf_def, v4_at, v2_at, v1_at]
  unfold Cam.gap
  rfl

/-! ## The softmax of the gap -/

/-- The second maximum at (b, p) is the supremum of row p of the gap. -/
theorem v6_at (b : Fin 16) (p : Fin 256) :
    val_main_v6 (F := Ideal) x0 (ix2 b p) = Finset.univ.sup fun j : Fin 256 => Cam.gap (Cam.energy (X x0 b)) p j := by
  unfold val_main_v6
  refine (RowMax.hostReduce_max_axis2_rank3 (val_main_v5 (F := Ideal) x0) (val_main_cst_0 (F := Ideal))
    reducesTo_S16x256x256_S16x256_d2 h_S_ RowMax.ofBits_negInf b p).trans ?_
  exact Finset.sup_congr rfl fun j _ => v5_at x0 b p j

/-- The splat of negative infinity is the least element everywhere. -/
theorem v7_at (i : S16x256.Idx) : val_main_v7 (F := Ideal) i = (⊥ : EReal) :=
  (val_main_v7_apply i).trans ((val_main_cst_1_apply _).trans RowMax.ofBits_negInf)

/-- The maximum with negative infinity changes nothing. -/
theorem v8_at (b : Fin 16) (p : Fin 256) :
    val_main_v8 (F := Ideal) x0 (ix2 b p) = Finset.univ.sup fun j : Fin 256 => Cam.gap (Cam.energy (X x0 b)) p j := by
  refine (val_main_v8_apply x0 _).trans ?_
  rw [Ideal.maximumf_def, v7_at, v6_at]
  exact max_bot_left _

/-- The row maximum of the gap broadcast back along the row. -/
theorem v10_at (b : Fin 16) (p q : Fin 256) :
    val_main_v10 (F := Ideal) x0 (ix3 b p q) = val_main_v8 (F := Ideal) x0 (ix2 b p) := by
  refine (val_main_v10_apply x0 _).trans ((val_main_v9_apply x0 _).trans ?_)
  exact congrArg (val_main_v8 (F := Ideal) x0) (funext fun a => Fin.ext (by
    match a with
    | ⟨0, _⟩ => rfl
    | ⟨1, _⟩ => rfl))

/-- The exponential of the gap less its row maximum: the softmax numerator. -/
theorem v12_at (b : Fin 16) (p q : Fin 256) :
    val_main_v12 (F := Ideal) x0 (ix3 b p q) = Cam.numer (Cam.gap (Cam.energy (X x0 b))) p q := by
  refine (val_main_v12_apply x0 _).trans ?_
  rw [Ideal.hostUnary_exp_def, val_main_v11_apply, Ideal.subf_def, v5_at, v10_at, v8_at]
  unfold Cam.numer
  rfl

/-- The sum-reduction from zero at (b, p) is the row sum of the numerators. -/
theorem v13_at (b : Fin 16) (p : Fin 256) :
    val_main_v13 (F := Ideal) x0 (ix2 b p) = ∑ j : Fin 256, Cam.numer (Cam.gap (Cam.energy (X x0 b))) p j := by
  refine (val_main_v13_apply x0 (ix2 b p)).trans ?_
  have h0 : (val_main_cst_2 (F := Ideal)) (Shape.Idx.first h_S_) = (0 : EReal) :=
    (val_main_cst_2_apply _).trans Ideal.ofBits_zero_f32
  rw [h0, zero_add]
  refine Finset.sum_congr rfl fun k _ => ?_
  have e : idx_main_v13 (ix2 b p) k = ix3 b p k := funext fun a => Fin.ext (by
    match a with
    | ⟨0, _⟩ => rfl
    | ⟨1, _⟩ => rfl
    | ⟨2, _⟩ => rfl)
  rw [e]
  exact v12_at x0 b p k

/-- The row sum broadcast back along the row. -/
theorem v15_at (b : Fin 16) (p q : Fin 256) :
    val_main_v15 (F := Ideal) x0 (ix3 b p q) = val_main_v13 (F := Ideal) x0 (ix2 b p) := by
  refine (val_main_v15_apply x0 _).trans ((val_main_v14_apply x0 _).trans ?_)
  exact congrArg (val_main_v13 (F := Ideal) x0) (funext fun a => Fin.ext (by
    match a with
    | ⟨0, _⟩ => rfl
    | ⟨1, _⟩ => rfl))

/-- The quotient is the attention weight. -/
theorem v16_at (b : Fin 16) (p q : Fin 256) :
    val_main_v16 (F := Ideal) x0 (ix3 b p q) = Cam.attn (X x0 b) p q := by
  refine (val_main_v16_apply x0 _).trans ?_
  rw [Ideal.hostDivf_def, v12_at, v15_at, v13_at]
  unfold Cam.attn Cam.soft
  rfl

/-! ## The attended stack -/

/-- The second product at (b, p, k) is the attention-weighted combination of the rows. -/
theorem v17_at (b : Fin 16) (p : Fin 256) (k : Fin 9216) :
    val_main_v17 (F := Ideal) x0 (ix3 b p k) = Cam.attend (X x0 b) p k := by
  refine (val_main_v17_apply x0 (ix3 b p k)).trans ?_
  show _ = ∑ j : Fin 256, Cam.attn (X x0 b) p j * val_main_v0 (F := Ideal) x0 (ix3 b j k)
  refine Finset.sum_congr rfl fun j _ => ?_
  have el : lidx_main_v17 (ix3 b p k) j = ix3 b p j := funext fun a => Fin.ext (by
    match a with
    | ⟨0, _⟩ => rfl
    | ⟨1, _⟩ => rfl
    | ⟨2, _⟩ => rfl)
  have er : ridx_main_v17 (ix3 b p k) j = ix3 b j k := funext fun a => Fin.ext (by
    match a with
    | ⟨0, _⟩ => rfl
    | ⟨1, _⟩ => rfl
    | ⟨2, _⟩ => rfl)
  rw [el, er, v16_at]

/-- The attended stack: the reference's second product is the specification's of the flattened argument. -/
theorem attend_eq (x0 : (⟨S16x256x96x96, .f32⟩ : BufTy).Contents (Elt Ideal)) :
    val_main_v17 (F := Ideal) x0 = Cam.attend3 (val_main_v0 (F := Ideal) x0) := by
  funext i
  obtain ⟨b, p, k, rfl⟩ : ∃ (b : Fin 16) (p : Fin 256) (k : Fin 9216), i = ix3 b p k := ⟨i 0, i 1, i 2, eq_ix3 i⟩
  exact (v17_at x0 b p k).trans (Cam.attend3_apply (val_main_v0 (F := Ideal) x0) b p k).symm

/-! ## Scaling by γ and adding the argument -/

/-- The broadcast of γ reads its one entry everywhere. -/
theorem v20_at (x1 : (⟨S1, .f32⟩ : BufTy).Contents (Elt Ideal)) (i : S16x256x96x96.Idx) :
    val_main_v20 (F := Ideal) x1 i = x1 (ix1 0) := by
  refine (val_main_v20_apply x1 i).trans ((val_main_v19_apply x1 _).trans ?_)
  exact congrArg x1 (funext fun a => Fin.ext (by
    match a with
    | ⟨0, _⟩ => rfl))

/-- The reference's result is the specification's. -/
theorem result_eq (x0 : (⟨S16x256x96x96, .f32⟩ : BufTy).Contents (Elt Ideal)) (x1 : (⟨S1, .f32⟩ : BufTy).Contents (Elt Ideal)) :
    val_main_v22 (F := Ideal) x0 x1
      = Cam.result shapeCasts_S16x256x96x96_S16x256x9216 shapeCasts_S16x256x9216_S16x256x96x96 x0 x1 := by
  refine Eq.trans ?_ (Cam.result_eq _ _ x0 x1).symm
  funext i
  refine (val_main_v22_apply x0 x1 i).trans ?_
  rw [Ideal.addf_def, val_main_v21_apply, Ideal.mulf_def, v20_at]
  unfold val_main_v18
  rw [attend_eq]
  unfold val_main_v0
  rfl

end Cert.ReferenceIdeal.RefValue

end
-- ==== Proof.lean ====
/- Channel attention, kernel against reference, at the exact extended reals.

   Both programs take x : [16, 256, 96, 96] and a one-entry scale γ, flatten the two image axes to 9216 columns, and
   for each of the 16 batch entries X (256 rows) form the energy E = X · Xᵀ, the gap D = rowmax E − E, the row-wise
   softmax A of D (row maximum subtracted first), and return γ · (A · X) + X, flattened back. The kernel does one
   batch entry per grid point, accumulating E over nine chunks of 1024 columns and writing the result chunk by
   chunk; the reference does the whole stack with two batched products. The two differ only in how the sums over
   the 9216 columns are grouped — and extended-real addition is commutative and associative — so they end with
   the same array, `Cam.result` of the arguments (Proof/Attention.lean); finiteness of the inputs is not used.
   The kernel's side is Proof/KernelValue.lean (over Rows, Energy, Chunk, Block), the reference's Proof/RefValue.lean.
   The three frames are the generated ones (the reference's is its generated run with the result dropped), and
   the idealization rewrote nothing, so `preserves` is trivial. -/
import proofs.«107731_j35029753266217_1_alg».proof.Defs
import proofs.«107731_j35029753266217_1_alg».proof.Proof.Gen.Kernel
import proofs.«107731_j35029753266217_1_alg».proof.Proof.Gen.Kernel.Skeleton
import proofs.«107731_j35029753266217_1_alg».proof.Proof.Gen.Kernel.Launch
import proofs.«107731_j35029753266217_1_alg».proof.Proof.Gen.Kernel.Points
import proofs.«107731_j35029753266217_1_alg».proof.Proof.Gen.Kernel.Frame
import proofs.«107731_j35029753266217_1_alg».proof.Proof.Gen.KernelIdeal
import proofs.«107731_j35029753266217_1_alg».proof.Proof.Gen.KernelIdeal.Skeleton
import proofs.«107731_j35029753266217_1_alg».proof.Proof.Gen.KernelIdeal.Launch
import proofs.«107731_j35029753266217_1_alg».proof.Proof.Gen.KernelIdeal.Points
import proofs.«107731_j35029753266217_1_alg».proof.Proof.Gen.KernelIdeal.Frame
import proofs.«107731_j35029753266217_1_alg».proof.Proof.Gen.ReferenceIdeal
import proofs.«107731_j35029753266217_1_alg».proof.Proof.Gen.ReferenceIdeal.Run
import proofs.«107731_j35029753266217_1_alg».proof.Proof.Gen.ReferenceIdeal.Read
import proofs.«107731_j35029753266217_1_alg».proof.Proof.KernelValue
import proofs.«107731_j35029753266217_1_alg».proof.Proof.RefValue
import proofs.«107731_j35029753266217_1_alg».proof.Proof.Gen.Pre_finite_inputs
import Idealize.ShloMosaic.Adequacy
import Idealize.ShloMosaic.Init

noncomputable section

namespace Cert.Proof

open Idealize.ShloMosaic Idealize.SL.Sem Cert.Kernel

/-- The word-level kernel runs and leaves its arguments as they were: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments as they were: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- From arguments that agree, both programs end with the specification's function of them. -/
theorem algebraic : Cert.algebraic_KernelIdeal_ReferenceIdeal := by
  intro m ρ m' ρ' _ hagree
  refine ⟨fun c => Cam.result Cert.KernelIdeal.Gen.shapeCasts_S16x256x96x96_S16x256x9216 Cert.KernelIdeal.Gen.shapeCasts_S16x256x9216_S16x256x96x96
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
